-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x256 : Shape := ⟨3, ![32, 4096, 256]⟩
abbrev S32x512x256 : Shape := ⟨3, ![32, 512, 256]⟩
abbrev S32x512 : Shape := ⟨2, ![32, 512]⟩
abbrev S32x256x512 : Shape := ⟨3, ![32, 256, 512]⟩
abbrev S32x256 : Shape := ⟨2, ![32, 256]⟩
abbrev S_ : Shape := ⟨0, ![]⟩

class Facts : Prop where
  bcast_S_S32x4096x256 : S_.BroadcastsInDim S32x4096x256 (![] : Fin 0 → Fin S32x4096x256.rank)
  reducesTo_S32x4096x256_S_d0_1_2 : S32x4096x256.ReducesTo [0, 1, 2] S_
  h_S_ : 0 < S_.numel
  bcast_S_S32x512x256 : S_.BroadcastsInDim S32x512x256 (![] : Fin 0 → Fin S32x512x256.rank)
  reducesTo_S32x512x256_S_d0_1_2 : S32x512x256.ReducesTo [0, 1, 2] S_
  bcast_S_S32x512 : S_.BroadcastsInDim S32x512 (![] : Fin 0 → Fin S32x512.rank)
  reducesTo_S32x512_S_d0_1 : S32x512.ReducesTo [0, 1] S_
  bcast_S_S32x256x512 : S_.BroadcastsInDim S32x256x512 (![] : Fin 0 → Fin S32x256x512.rank)
  reducesTo_S32x256x512_S_d0_1_2 : S32x256x512.ReducesTo [0, 1, 2] S_
  bcast_S_S32x256 : S_.BroadcastsInDim S32x256 (![] : Fin 0 → Fin S32x256.rank)
  reducesTo_S32x256_S_d0_1 : S32x256.ReducesTo [0, 1] S_

variable [Facts]

def fn_part1 {F : FTy → Type} [FloatOps F] (main_arg4 : FVec F S32x256 .f32) (main_v13 : IVec S_ 1) (main_v16 : IVec S32x256x512 1) : IVec S_ 1 :=
  let main_c_5 : IVec S_ 1 := constantI S_ 1 1#1
  let main_v17 : IVec S_ 1 := (fun x v => Host.reduce IntOp.andi x v reducesTo_S32x256x512_S_d0_1_2 h_S_) main_v16 main_c_5
  let main_v18 : IVec S_ 1 := andi main_v13 main_v17
  let main_v19 : FVec F S32x256 .f32 := Host.absf main_arg4
  let main_cst_6 : FVec F S_ .f32 := constant S_ .f32 0x7F800000#32
  let main_v20 : FVec F S32x256 .f32 := broadcastInDim S32x256 ![] bcast_S_S32x256 main_cst_6
  let main_v21 : IVec S32x256 1 := cmpf .olt main_v19 main_v20
  let main_c_7 : IVec S_ 1 := constantI S_ 1 1#1
  let main_v22 : IVec S_ 1 := (fun x v => Host.reduce IntOp.andi x v reducesTo_S32x256_S_d0_1 h_S_) main_v21 main_c_7
  let main_v23 : IVec S_ 1 := andi main_v18 main_v22
  main_v23

def fn {F : FTy → Type} [FloatOps F] (main_arg0 : FVec F S32x4096x256 .f32) (main_arg1 : FVec F S32x512x256 .f32) (main_arg2 : FVec F S32x512 .f32) (main_arg3 : FVec F S32x256x512 .f32) (main_arg4 : FVec F S32x256 .f32) : IVec S_ 1 :=
  let main_v0 : FVec F S32x4096x256 .f32 := Host.absf main_arg0
  let main_cst : FVec F S_ .f32 := constant S_ .f32 0x7F800000#32
  let main_v1 : FVec F S32x4096x256 .f32 := broadcastInDim S32x4096x256 ![] bcast_S_S32x4096x256 main_cst
  let main_v2 : IVec S32x4096x256 1 := cmpf .olt main_v0 main_v1
  let main_c : IVec S_ 1 := constantI S_ 1 1#1
  let main_v3 : IVec S_ 1 := (fun x v => Host.reduce IntOp.andi x v reducesTo_S32x4096x256_S_d0_1_2 h_S_) main_v2 main_c
  let main_v4 : FVec F S32x512x256 .f32 := Host.absf main_arg1
  let main_cst_0 : FVec F S_ .f32 := constant S_ .f32 0x7F800000#32
  let main_v5 : FVec F S32x512x256 .f32 := broadcastInDim S32x512x256 ![] bcast_S_S32x512x256 main_cst_0
  let main_v6 : IVec S32x512x256 1 := cmpf .olt main_v4 main_v5
  let main_c_1 : IVec S_ 1 := constantI S_ 1 1#1
  let main_v7 : IVec S_ 1 := (fun x v => Host.reduce IntOp.andi x v reducesTo_S32x512x256_S_d0_1_2 h_S_) main_v6 main_c_1
  let main_v8 : IVec S_ 1 := andi main_v3 main_v7
  let main_v9 : FVec F S32x512 .f32 := Host.absf main_arg2
  let main_cst_2 : FVec F S_ .f32 := constant S_ .f32 0x7F800000#32
  let main_v10 : FVec F S32x512 .f32 := broadcastInDim S32x512 ![] bcast_S_S32x512 main_cst_2
  let main_v11 : IVec S32x512 1 := cmpf .olt main_v9 main_v10
  let main_c_3 : IVec S_ 1 := constantI S_ 1 1#1
  let main_v12 : IVec S_ 1 := (fun x v => Host.reduce IntOp.andi x v reducesTo_S32x512_S_d0_1 h_S_) main_v11 main_c_3
  let main_v13 : IVec S_ 1 := andi main_v8 main_v12
  let main_v14 : FVec F S32x256x512 .f32 := Host.absf main_arg3
  let main_cst_4 : FVec F S_ .f32 := constant S_ .f32 0x7F800000#32
  let main_v15 : FVec F S32x256x512 .f32 := broadcastInDim S32x256x512 ![] bcast_S_S32x256x512 main_cst_4
  let main_v16 : IVec S32x256x512 1 := cmpf .olt main_v14 main_v15
  fn_part1 (F := F) main_arg4 main_v13 main_v16
-- ==== Kernel.lean ====
abbrev S32x4096x256 : Shape := ⟨3, ![32, 4096, 256]⟩
abbrev S32x512x256 : Shape := ⟨3, ![32, 512, 256]⟩
abbrev S32x512 : Shape := ⟨2, ![32, 512]⟩
abbrev S32x256x512 : Shape := ⟨3, ![32, 256, 512]⟩
abbrev S32x256 : Shape := ⟨2, ![32, 256]⟩
abbrev S32x1x512 : Shape := ⟨3, ![32, 1, 512]⟩
abbrev S32x1x256 : Shape := ⟨3, ![32, 1, 256]⟩
abbrev S1x2048x256 : Shape := ⟨3, ![1, 2048, 256]⟩
abbrev S1x512x256 : Shape := ⟨3, ![1, 512, 256]⟩
abbrev S1x1x512 : Shape := ⟨3, ![1, 1, 512]⟩
abbrev S1x256x512 : Shape := ⟨3, ![1, 256, 512]⟩
abbrev S1x1x256 : Shape := ⟨3, ![1, 1, 256]⟩
abbrev S2048x256 : Shape := ⟨2, ![2048, 256]⟩
abbrev S512x256 : Shape := ⟨2, ![512, 256]⟩
abbrev S1x512 : Shape := ⟨2, ![1, 512]⟩
abbrev S256x512 : Shape := ⟨2, ![256, 512]⟩
abbrev S1x256 : Shape := ⟨2, ![1, 256]⟩
abbrev S2048x512 : Shape := ⟨2, ![2048, 512]⟩

abbrev nBuf : Space → Nat
  | .hbm => 10
  | .vmem => 12
  | .smem => 0
  | _ => 0

abbrev bufTy : (tb : Table) → Fin (tcTables nBuf tb) → BufTy
  | .hbm, ⟨0, _⟩ => ⟨S32x4096x256, .f32⟩
  | .hbm, ⟨1, _⟩ => ⟨S32x512x256, .f32⟩
  | .hbm, ⟨2, _⟩ => ⟨S32x512, .f32⟩
  | .hbm, ⟨3, _⟩ => ⟨S32x256x512, .f32⟩
  | .hbm, ⟨4, _⟩ => ⟨S32x256, .f32⟩
  | .hbm, ⟨5, _⟩ => ⟨S32x512x256, .bf16⟩
  | .hbm, ⟨6, _⟩ => ⟨S32x256x512, .bf16⟩
  | .hbm, ⟨7, _⟩ => ⟨S32x1x512, .f32⟩
  | .hbm, ⟨8, _⟩ => ⟨S32x1x256, .f32⟩
  | .hbm, ⟨9, _⟩ => ⟨S32x4096x256, .f32⟩
  | .local _ .vmem, ⟨0, _⟩ => ⟨S1x2048x256, .f32⟩
  | .local _ .vmem, ⟨1, _⟩ => ⟨S1x2048x256, .f32⟩
  | .local _ .vmem, ⟨2, _⟩ => ⟨S1x512x256, .bf16⟩
  | .local _ .vmem, ⟨3, _⟩ => ⟨S1x512x256, .bf16⟩
  | .local _ .vmem, ⟨4, _⟩ => ⟨S1x1x512, .f32⟩
  | .local _ .vmem, ⟨5, _⟩ => ⟨S1x1x512, .f32⟩
  | .local _ .vmem, ⟨6, _⟩ => ⟨S1x256x512, .bf16⟩
  | .local _ .vmem, ⟨7, _⟩ => ⟨S1x256x512, .bf16⟩
  | .local _ .vmem, ⟨8, _⟩ => ⟨S1x1x256, .f32⟩
  | .local _ .vmem, ⟨9, _⟩ => ⟨S1x1x256, .f32⟩
  | .local _ .vmem, ⟨10, _⟩ => ⟨S1x2048x256, .f32⟩
  | .local _ .vmem, ⟨11, _⟩ => ⟨S1x2048x256, .f32⟩
  | _, _ => ⟨S32x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  bcast_S32x512_S32x1x512_0_2 : S32x512.BroadcastsInDim S32x1x512 (![0, 2] : Fin 2 → Fin S32x1x512.rank)
  bcast_S32x256_S32x1x256_0_2 : S32x256.BroadcastsInDim S32x1x256 (![0, 2] : Fin 2 → Fin S32x1x256.rank)
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x512_S2048x512 : S1x512.Broadcasts S2048x512
  broadcasts_S1x256_S2048x256 : S1x256.Broadcasts S2048x256
  shapeCasts_S2048x256_S1x2048x256 : S2048x256.ShapeCasts S1x2048x256
  dot_S2048x256_S512x256_S2048x512_1_1_0_0_n_n_wf : DotDims.WF S2048x256 S512x256 S2048x512 [1] [1] [0] [0] [] []
  dot_S2048x512_S256x512_S2048x256_1_1_0_0_n_n_wf : DotDims.WF S2048x512 S256x512 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S32x4096x256.size a
  hwx0_0 : ∀ i : grid0.Coords, EltTy.bits .f32 = 32 ∨ (Rect.block (s := S32x4096x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S32x512x256.size a
  hwx0_1 : ∀ i : grid0.Coords, EltTy.bits .bf16 = 32 ∨ (Rect.block (s := S32x512x256) S1x512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S32x1x512.size a
  hwx0_2 : ∀ i : grid0.Coords, EltTy.bits .f32 = 32 ∨ (Rect.block (s := S32x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x512.size a ≤ S32x256x512.size a
  hwx0_3 : ∀ i : grid0.Coords, EltTy.bits .bf16 = 32 ∨ (Rect.block (s := S32x256x512) S1x256x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x256.size a ≤ S32x1x256.size a
  hwx0_4 : ∀ i : grid0.Coords, EltTy.bits .f32 = 32 ∨ (Rect.block (s := S32x1x256) S1x1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x256.size a ≤ S32x4096x256.size a
  hwx0_5 : ∀ i : grid0.Coords, EltTy.bits .f32 = 32 ∨ (Rect.block (s := S32x4096x256) S1x2048x256.size (cc0_transform_5 i) (hinb0_5 i)).WholeWords (EltTy.packing .f32)

variable [Facts₀]

def dot_S2048x256_S512x256_S2048x512_1_1_0_0_n_n : DotDims S2048x256 S512x256 S2048x512 where
  lhsContracting := [1]
  rhsContracting := [1]
  lhsNonContracting := [0]
  rhsNonContracting := [0]
  lhsBatch := []
  rhsBatch := []
  wf := dot_S2048x256_S512x256_S2048x512_1_1_0_0_n_n_wf
def dot_S2048x512_S256x512_S2048x256_1_1_0_0_n_n : DotDims S2048x512 S256x512 S2048x256 where
  lhsContracting := [1]
  rhsContracting := [1]
  lhsNonContracting := [0]
  rhsNonContracting := [0]
  lhsBatch := []
  rhsBatch := []
  wf := dot_S2048x512_S256x512_S2048x256_1_1_0_0_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x4096x256 : Shape := ⟨3, ![32, 4096, 256]⟩
abbrev S32x512x256 : Shape := ⟨3, ![32, 512, 256]⟩
abbrev S32x512 : Shape := ⟨2, ![32, 512]⟩
abbrev S32x256x512 : Shape := ⟨3, ![32, 256, 512]⟩
abbrev S32x256 : Shape := ⟨2, ![32, 256]⟩
abbrev S32x4096x512 : Shape := ⟨3, ![32, 4096, 512]⟩
abbrev S32x1x512 : Shape := ⟨3, ![32, 1, 512]⟩
abbrev S_ : Shape := ⟨0, ![]⟩
abbrev S32x1x256 : Shape := ⟨3, ![32, 1, 256]⟩

abbrev nBuf : Space → Nat
  | .hbm => 23
  | .vmem => 0
  | .smem => 0
  | _ => 0

abbrev bufTy : (tb : Table) → Fin (tcTables nBuf tb) → BufTy
  | .hbm, ⟨0, _⟩ => ⟨S32x4096x256, .f32⟩
  | .hbm, ⟨1, _⟩ => ⟨S32x512x256, .f32⟩
  | .hbm, ⟨2, _⟩ => ⟨S32x512, .f32⟩
  | .hbm, ⟨3, _⟩ => ⟨S32x256x512, .f32⟩
  | .hbm, ⟨4, _⟩ => ⟨S32x256, .f32⟩
  | .hbm, ⟨5, _⟩ => ⟨S32x4096x512, .f32⟩
  | .hbm, ⟨6, _⟩ => ⟨S32x1x512, .f32⟩
  | .hbm, ⟨7, _⟩ => ⟨S32x4096x512, .f32⟩
  | .hbm, ⟨8, _⟩ => ⟨S32x4096x512, .f32⟩
  | .hbm, ⟨9, _⟩ => ⟨S32x4096x512, .f32⟩
  | .hbm, ⟨10, _⟩ => ⟨S32x4096x512, .f32⟩
  | .hbm, ⟨11, _⟩ => ⟨S_, .f32⟩
  | .hbm, ⟨12, _⟩ => ⟨S32x4096x512, .f32⟩
  | .hbm, ⟨13, _⟩ => ⟨S32x4096x512, .f32⟩
  | .hbm, ⟨14, _⟩ => ⟨S_, .f32⟩
  | .hbm, ⟨15, _⟩ => ⟨S32x4096x512, .f32⟩
  | .hbm, ⟨16, _⟩ => ⟨S32x4096x512, .f32⟩
  | .hbm, ⟨17, _⟩ => ⟨S32x4096x512, .f32⟩
  | .hbm, ⟨18, _⟩ => ⟨S32x4096x256, .f32⟩
  | .hbm, ⟨19, _⟩ => ⟨S32x1x256, .f32⟩
  | .hbm, ⟨20, _⟩ => ⟨S32x4096x256, .f32⟩
  | .hbm, ⟨21, _⟩ => ⟨S32x4096x256, .f32⟩
  | .hbm, ⟨22, _⟩ => ⟨S32x4096x256, .f32⟩
  | _, _ => ⟨S32x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]

class Facts₀ : Prop where
  bcast_S32x512_S32x1x512_0_2 : S32x512.BroadcastsInDim S32x1x512 (![0, 2] : Fin 2 → Fin S32x1x512.rank)
  bcast_S32x1x512_S32x4096x512_0_1_2 : S32x1x512.BroadcastsInDim S32x4096x512 (![0, 1, 2] : Fin 3 → Fin S32x4096x512.rank)
  bcast_S_S32x4096x512 : S_.BroadcastsInDim S32x4096x512 (![] : Fin 0 → Fin S32x4096x512.rank)
  bcast_S32x256_S32x1x256_0_2 : S32x256.BroadcastsInDim S32x1x256 (![0, 2] : Fin 2 → Fin S32x1x256.rank)
  bcast_S32x1x256_S32x4096x256_0_1_2 : S32x1x256.BroadcastsInDim S32x4096x256 (![0, 1, 2] : Fin 3 → Fin S32x4096x256.rank)
  dot_S32x4096x256_S32x512x256_S32x4096x512_2_2_1_1_0_0_wf : DotDims.WF S32x4096x256 S32x512x256 S32x4096x512 [2] [2] [1] [1] [0] [0]
  dot_S32x4096x512_S32x256x512_S32x4096x256_2_2_1_1_0_0_wf : DotDims.WF S32x4096x512 S32x256x512 S32x4096x256 [2] [2] [1] [1] [0] [0]

variable [Facts₀]

def dot_S32x4096x256_S32x512x256_S32x4096x512_2_2_1_1_0_0 : DotDims S32x4096x256 S32x512x256 S32x4096x512 where
  lhsContracting := [2]
  rhsContracting := [2]
  lhsNonContracting := [1]
  rhsNonContracting := [1]
  lhsBatch := [0]
  rhsBatch := [0]
  wf := dot_S32x4096x256_S32x512x256_S32x4096x512_2_2_1_1_0_0_wf
def dot_S32x4096x512_S32x256x512_S32x4096x256_2_2_1_1_0_0 : DotDims S32x4096x512 S32x256x512 S32x4096x256 where
  lhsContracting := [2]
  rhsContracting := [2]
  lhsNonContracting := [1]
  rhsNonContracting := [1]
  lhsBatch := [0]
  rhsBatch := [0]
  wf := dot_S32x4096x512_S32x256x512_S32x4096x256_2_2_1_1_0_0_wf

class Facts : Prop extends Facts₀ where

variable [Facts]
-- ==== Proof.Spec.lean ====
/-
  THIRTY-TWO INDEPENDENT TWO-LAYER PERCEPTRONS WITH A RESIDUAL CONNECTION, ON THE EXTENDED REALS.

  For expert n, token t and output feature d the result is

      out (n, t, d) = (∑ h, silu (pre (n, t, h)) · W2 (n, d, h)) + b2 (n, d) + x (n, t, d),
      pre (n, t, h) = (∑ k, x (n, t, k) · W1 (n, h, k)) + b1 (n, h),

  with silu a = a · σ(a) and σ the logistic function 1 / (1 + e^(-a)), read on the extended reals with the
  conventions σ(-∞) = 0 and σ(+∞) = 1. Both contractions run over the LAST axis of the activations and the LAST axis of
  the weight (x · W1ᵀ, then silu(pre) · W2ᵀ), with k over the 256 model features and h over the 512 hidden ones.

  Nothing here is rearranged: the two programs compared against this function add the same terms in the same
  grouping, so no law that needs finiteness (distributivity, cancellation) is used anywhere, and the equality holds for
  every extended-real input.
-/
import Idealize.ShloMosaic.PureOps.Ideal
import Idealize.ShloMosaic.PureOps.IdealRules
import Idealize.ShloMosaic.Lib.ValueIdx

noncomputable section

open scoped BigOperators

namespace Cert.Mlp

open Idealize.ShloMosaic Idealize.ShloMosaic.ValueIdx

/-- SiLU on the extended reals: a · σ(a). -/
def silu (a : EReal) : EReal := a * Ideal.logistic a

/-- The first layer before its activation at (n, t, h): row t of expert n's activations against row h of its first
    weight, plus the first bias. -/
def pre (x : (⟨3, ![32, 4096, 256]⟩ : Shape).Idx → EReal) (w1 : (⟨3, ![32, 512, 256]⟩ : Shape).Idx → EReal)
    (b1 : (⟨2, ![32, 512]⟩ : Shape).Idx → EReal) (n : Fin 32) (t : Fin 4096) (h : Fin 512) : EReal :=
  (∑ k : Fin 256, x (ix3 n t k) * w1 (ix3 n h k)) + b1 (ix2 n h)

/-- The whole perceptron at (n, t, d): the activated hidden row against row d of the second weight, plus the second
    bias, plus the input itself (the residual connection). -/
def mlp (x : (⟨3, ![32, 4096, 256]⟩ : Shape).Idx → EReal) (w1 : (⟨3, ![32, 512, 256]⟩ : Shape).Idx → EReal)
    (b1 : (⟨2, ![32, 512]⟩ : Shape).Idx → EReal) (w2 : (⟨3, ![32, 256, 512]⟩ : Shape).Idx → EReal)
    (b2 : (⟨2, ![32, 256]⟩ : Shape).Idx → EReal) (n : Fin 32) (t : Fin 4096) (d : Fin 256) : EReal :=
  ((∑ h : Fin 512, silu (pre x w1 b1 n t h) * w2 (ix3 n d h)) + b2 (ix2 n d)) + x (ix3 n t d)

/-- The result array as one function of the five argument arrays, index by index. -/
def out (x : (⟨3, ![32, 4096, 256]⟩ : Shape).Idx → EReal) (w1 : (⟨3, ![32, 512, 256]⟩ : Shape).Idx → EReal)
    (b1 : (⟨2, ![32, 512]⟩ : Shape).Idx → EReal) (w2 : (⟨3, ![32, 256, 512]⟩ : Shape).Idx → EReal)
    (b2 : (⟨2, ![32, 256]⟩ : Shape).Idx → EReal) : (⟨3, ![32, 4096, 256]⟩ : Shape).Idx → EReal :=
  fun i => mlp x w1 b1 w2 b2 (i 0) (i 1) (i 2)

/-- The single-precision word 0x3F800000 denotes the real number one. -/
theorem one_word : Ideal.ofBits .f32 0x3F800000#32 = 1 := IdealRules.sign_bit.ideal_onePat .f32

/-- SiLU spelt out as a product with the quotient 1 / (1 + e^(-a)), the two ones given as single-precision words, is
    SiLU: the logistic function IS that quotient on every extended real, the infinities included. -/
theorem silu_spelt (a : EReal) :
    a * Ideal.div (Ideal.ofBits .f32 0x3F800000#32) (Ideal.ofBits .f32 0x3F800000#32 + Ideal.exp (-a)) = silu a := by
  rw [one_word]
  rfl

end Cert.Mlp

end
-- ==== Proof.LibTransDot.lean ====
/-
  A PRODUCT WITH THE WEIGHT'S SECOND AXIS CONTRACTED (x · Wᵀ), AS A SUM.

  einsum 'de,ne->nd' and 'de,nke->nkd' contract the activations' last axis with the weight's LAST axis: the result
  at (n, d), or (n, k, d), is the sum over e of the activation's (n, e), or (n, k, e), times the weight's (d, e).
-/
import Idealize.ShloMosaic.PureOps.Ideal.Laws
import Idealize.ShloMosaic.Lib.ValueIdx

noncomputable section

open scoped BigOperators

namespace Cert.Lib

open Idealize.ShloMosaic Idealize.ShloMosaic.ValueIdx

section Rank2

variable {M K N : Nat} (d : DotDims ⟨2, ![M, K]⟩ ⟨2, ![N, K]⟩ ⟨2, ![M, N]⟩)

theorem t2_lhs_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

theorem t2_rhs_row (hln : d.lhsNonContracting = [0]) (hrn : d.rhsNonContracting = [0]) (hlb : d.lhsBatch = [])
    (hrb : d.rhsBatch = []) (j : (⟨2, ![M, N]⟩ : Shape).Idx) (k : d.contr.Idx) :
    (d.rhsIdx j k (0 : Fin 2)).val = (j (1 : Fin 2)).val := by
  have hb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

theorem t2_contr_rank (hl : d.lhsContracting = [1]) : d.contr.rank = 1 := by rw [d.rank_contr, hl]; rfl

theorem t2_contr_size (hl : d.lhsContracting = [1]) :
    d.contr.size ⟨0, by rw [t2_contr_rank d hl]; exact Nat.one_pos⟩ = K := by
  have h0 : (0 : Nat) < d.lhsContracting.length := by rw [hl]; exact Nat.one_pos
  refine (d.size_contr 0 h0).trans ?_
  rw [List.getElem_of_eq hl h0]
  rfl

/-- x · Wᵀ at (p, n): the sum over k of x (p, k) · W (n, k). -/
theorem sum_contr_t2 {α : Type*} [AddCommMonoid α] (hl : d.lhsContracting = [1]) (hr : d.rhsContracting = [1])
    (hln : d.lhsNonContracting = [0]) (hrn : d.rhsNonContracting = [0]) (hlb : d.lhsBatch = []) (hrb : d.rhsBatch = [])
    (f : (⟨2, ![M, K]⟩ : Shape).Idx → (⟨2, ![N, K]⟩ : Shape).Idx → α) (p : Fin M) (n : Fin N) :
    ∑ k : d.contr.Idx, f (d.lhsIdx (ix2 p n) k) (d.rhsIdx (ix2 p n) k) = ∑ k : Fin K, f (ix2 p k) (ix2 n k) := by
  have hrk := t2_contr_rank d hl
  have hs := t2_contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact t2_lhs_row d hln hlb _ _
    | ⟨1, _⟩ => exact (d.lhsIdx_val_of_single hl _ _).trans (contrEquiv1_symm_val d K hrk hs k)
  have e2 : d.rhsIdx (ix2 p n) ((contrEquiv1 d K hrk hs).symm k) = ix2 n k := by
    funext a; apply Fin.ext
    match a with
    | ⟨0, _⟩ => exact t2_rhs_row d hln hrn hlb hrb _ _
    | ⟨1, _⟩ => exact (d.rhsIdx_val_of_single hr _ _).trans (contrEquiv1_symm_val d K hrk hs k)
  rw [e1, e2]

theorem dotGeneral_t2_at (hl : d.lhsContracting = [1]) (hr : d.rhsContracting = [1])
    (hln : d.lhsNonContracting = [0]) (hrn : d.rhsNonContracting = [0]) (hlb : d.lhsBatch = []) (hrb : d.rhsBatch = [])
    {φ₁ φ₂ : FTy} (prec : Option ContractPrecision) (a : FVec Ideal ⟨2, ![M, K]⟩ φ₁) (b : FVec Ideal ⟨2, ![N, K]⟩ φ₂)
    (r : Fin M) (q : Fin N) :
    Host.dotGeneral d prec a b (ix2 r q) = ∑ p : Fin K, a (ix2 r p) * b (ix2 q p) :=
  (Ideal.dotGeneral_apply d prec .single a b (ix2 r q)).trans
    (sum_contr_t2 d hl hr hln hrn hlb hrb (fun i j => a i * b j) r q)

end Rank2

section Rank3

variable {A B K N : Nat} (d : DotDims ⟨3, ![A, B, K]⟩ ⟨2, ![N, K]⟩ ⟨3, ![A, B, N]⟩)

theorem t3_lhs_0 (hln : d.lhsNonContracting = [0, 1]) (hlb : d.lhsBatch = [])
    (j : (⟨3, ![A, B, N]⟩ : Shape).Idx) (k : d.contr.Idx) : (d.lhsIdx j k (0 : Fin 3)).val = (j (0 : Fin 3)).val := by
  have hb : (0 : Fin 3) ∉ d.lhsBatch := by rw [hlb]; exact List.not_mem_nil
  have hn : (0 : Fin 3) ∈ d.lhsNonContracting := by rw [hln]; simp
  unfold DotDims.lhsIdx
  rw [dif_neg hb, dif_pos hn]
  simp only [Fin.val_cast]
  have key : ∀ (a b : Nat) (ha : a < 3) (hb : b < 3), a = b → (j ⟨a, ha⟩).val = (j ⟨b, hb⟩).val := by
    intro a b ha hb e; subst e; rfl
  exact key _ _ _ _ (by rw [hlb, hln]; rfl)

theorem t3_lhs_1 (hln : d.lhsNonContracting = [0, 1]) (hlb : d.lhsBatch = [])
    (j : (⟨3, ![A, B, N]⟩ : Shape).Idx) (k : d.contr.Idx) : (d.lhsIdx j k (1 : Fin 3)).val = (j (1 : Fin 3)).val := by
  have hb : (1 : Fin 3) ∉ d.lhsBatch := by rw [hlb]; exact List.not_mem_nil
  have hn : (1 : Fin 3) ∈ d.lhsNonContracting := by rw [hln]; simp
  unfold DotDims.lhsIdx
  rw [dif_neg hb, dif_pos hn]
  simp only [Fin.val_cast]
  have key : ∀ (a b : Nat) (ha : a < 3) (hb : b < 3), a = b → (j ⟨a, ha⟩).val = (j ⟨b, hb⟩).val := by
    intro a b ha hb e; subst e; rfl
  exact key _ _ _ _ (by rw [hlb, hln]; rfl)

theorem t3_rhs_row (hln : d.lhsNonContracting = [0, 1]) (hrn : d.rhsNonContracting = [0]) (hlb : d.lhsBatch = [])
    (hrb : d.rhsBatch = []) (j : (⟨3, ![A, B, N]⟩ : Shape).Idx) (k : d.contr.Idx) :
    (d.rhsIdx j k (0 : Fin 2)).val = (j (2 : Fin 3)).val := by
  have hb : (0 : Fin 2) ∉ d.rhsBatch := by rw [hrb]; exact List.not_mem_nil
  have hn : (0 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 3) (hb : b < 3), a = b → (j ⟨a, ha⟩).val = (j ⟨b, hb⟩).val := by
    intro a b ha hb e; subst e; rfl
  exact key _ _ _ _ (by rw [hlb, hln, hrn]; rfl)

theorem t3_contr_rank (hl : d.lhsContracting = [2]) : d.contr.rank = 1 := by rw [d.rank_contr, hl]; rfl

theorem t3_contr_size (hl : d.lhsContracting = [2]) :
    d.contr.size ⟨0, by rw [t3_contr_rank d hl]; exact Nat.one_pos⟩ = K := by
  have h0 : (0 : Nat) < d.lhsContracting.length := by rw [hl]; exact Nat.one_pos
  refine (d.size_contr 0 h0).trans ?_
  rw [List.getElem_of_eq hl h0]
  rfl

/-- x · Wᵀ over a slab at (a, b, n): the sum over k of x (a, b, k) · W (n, k). -/
theorem sum_contr_t3 {α : Type*} [AddCommMonoid α] (hl : d.lhsContracting = [2]) (hr : d.rhsContracting = [1])
    (hln : d.lhsNonContracting = [0, 1]) (hrn : d.rhsNonContracting = [0]) (hlb : d.lhsBatch = []) (hrb : d.rhsBatch = [])
    (f : (⟨3, ![A, B, K]⟩ : Shape).Idx → (⟨2, ![N, K]⟩ : Shape).Idx → α) (a : Fin A) (b : Fin B) (n : Fin N) :
    ∑ k : d.contr.Idx, f (d.lhsIdx (ix3 a b n) k) (d.rhsIdx (ix3 a b n) k) = ∑ k : Fin K, f (ix3 a b k) (ix2 n k) := by
  have hrk := t3_contr_rank d hl
  have hs := t3_contr_size d hl
  rw [← Equiv.sum_comp (contrEquiv1 d K hrk hs).symm]
  refine Finset.sum_congr rfl fun k _ => ?_
  have e1 : d.lhsIdx (ix3 a b n) ((contrEquiv1 d K hrk hs).symm k) = ix3 a b k := by
    funext c; apply Fin.ext
    match c with
    | ⟨0, _⟩ => exact t3_lhs_0 d hln hlb _ _
    | ⟨1, _⟩ => exact t3_lhs_1 d hln hlb _ _
    | ⟨2, _⟩ => exact (d.lhsIdx_val_of_single hl _ _).trans (contrEquiv1_symm_val d K hrk hs k)
  have e2 : d.rhsIdx (ix3 a b n) ((contrEquiv1 d K hrk hs).symm k) = ix2 n k := by
    funext c; apply Fin.ext
    match c with
    | ⟨0, _⟩ => exact t3_rhs_row d hln hrn hlb hrb _ _
    | ⟨1, _⟩ => exact (d.rhsIdx_val_of_single hr _ _).trans (contrEquiv1_symm_val d K hrk hs k)
  rw [e1, e2]

theorem dotGeneral_t3_at (hl : d.lhsContracting = [2]) (hr : d.rhsContracting = [1])
    (hln : d.lhsNonContracting = [0, 1]) (hrn : d.rhsNonContracting = [0]) (hlb : d.lhsBatch = []) (hrb : d.rhsBatch = [])
    {φ₁ φ₂ : FTy} (prec : Option ContractPrecision) (x : FVec Ideal ⟨3, ![A, B, K]⟩ φ₁) (w : FVec Ideal ⟨2, ![N, K]⟩ φ₂)
    (a : Fin A) (b : Fin B) (q : Fin N) :
    Host.dotGeneral d prec x w (ix3 a b q) = ∑ p : Fin K, x (ix3 a b p) * w (ix2 q p) :=
  (Ideal.dotGeneral_apply d prec .single x w (ix3 a b q)).trans
    (sum_contr_t3 d hl hr hln hrn hlb hrb (fun i j => x i * w j) a b q)

end Rank3

end Cert.Lib

end
-- ==== Proof.LibTransMatmul.lean ====
/-
  A KERNEL'S MATRIX PRODUCT WITH THE WEIGHT'S LAST AXIS CONTRACTED (x · Wᵀ), AND A DENSE LAYER OVER IT, AT AN ENTRY.

  A matrix product of an [M, K] block with an [N, K] block that contracts the last axis of both, accumulated into the
  zero block, has at (r, q) the sum over k of the left block's (r, k) times the right block's (q, k). A dense layer adds to
  it a bias row [1, N] repeated down the M rows: at (r, q) that adds the bias row's entry q.
-/
import proofs.«114129_j45775761441336_2_alg».proof.Proof.LibTransDot
import Idealize.ShloMosaic.Lib.ValueLayout

noncomputable section

open scoped BigOperators

namespace Cert.Lib

open Idealize.ShloMosaic Idealize.ShloMosaic.ValueIdx

variable {M K N : Nat} (d : DotDims ⟨2, ![M, K]⟩ ⟨2, ![N, K]⟩ ⟨2, ![M, N]⟩)

/-- x · Wᵀ into the zero block at (r, q): the sum over k of x (r, k) · W (q, k). -/
theorem matmul_t2_zero_at (hl : d.lhsContracting = [1]) (hr : d.rhsContracting = [1])
    (hln : d.lhsNonContracting = [0]) (hrn : d.rhsNonContracting = [0]) (hlb : d.lhsBatch = []) (hrb : d.rhsBatch = [])
    {φ₁ φ₂ : FTy} (prec : Option ContractPrecision) (a : FVec Ideal ⟨2, ![M, K]⟩ φ₁) (b : FVec Ideal ⟨2, ![N, K]⟩ φ₂)
    (r : Fin M) (q : Fin N) :
    matmul d prec a b (constant (F := Ideal) ⟨2, ![M, N]⟩ .f32 0x00000000#32) (ix2 r q) = ∑ k : Fin K, a (ix2 r k) * b (ix2 q k) :=
  (Ideal.matmul_constant_zero_apply d prec a b (ix2 r q)).trans
    (sum_contr_t2 d hl hr hln hrn hlb hrb (fun i j => a i * b j) r q)

/-- A dense layer x · Wᵀ + b at (r, q): the contraction sum plus the bias row's entry q. -/
theorem dense_t2_at (hl : d.lhsContracting = [1]) (hr : d.rhsContracting = [1])
    (hln : d.lhsNonContracting = [0]) (hrn : d.rhsNonContracting = [0]) (hlb : d.lhsBatch = []) (hrb : d.rhsBatch = [])
    {φ₁ φ₂ : FTy} (prec : Option ContractPrecision) (a : FVec Ideal ⟨2, ![M, K]⟩ φ₁) (b : FVec Ideal ⟨2, ![N, K]⟩ φ₂)
    (bias : FVec Ideal ⟨2, ![1, N]⟩ .f32) (hb : (⟨2, ![1, N]⟩ : Shape).Broadcasts ⟨2, ![M, N]⟩) (r : Fin M) (q : Fin N) :
    addf (matmul d prec a b (constant (F := Ideal) ⟨2, ![M, N]⟩ .f32 0x00000000#32)) (broadcastTo ⟨2, ![M, N]⟩ bias hb) (ix2 r q)
      = (∑ k : Fin K, a (ix2 r k) * b (ix2 q k)) + bias (ix2 (0 : Fin 1) q) :=
  congrArg₂ (· + ·) (matmul_t2_zero_at d hl hr hln hrn hlb hrb prec a b r q) (broadcastTo_1b_ab_apply bias hb r q)

end Cert.Lib

end
-- ==== Proof.Payload.lean ====
/-
  WHAT THE KERNEL BODY STORES, AT AN ENTRY OF ITS BLOCK.

  At one grid point the body holds one expert's weights and biases and a tile of 2048 of its tokens: the activations
  block [1, 2048, 256], the first weight [1, 512, 256], the first bias [1, 1, 512], the second weight [1, 256, 512] and
  the second bias [1, 1, 256], each with a leading unit axis that the body drops. It stores, at row r and feature q
  of the tile,

      (∑ h, silu ((∑ k, x (r, k) · W1 (h, k)) + b1 (h)) · W2 (q, h)) + b2 (q) + x (r, q):

  the two products contract the last axis of both operands, the bias rows are repeated down the tile's rows, the
  narrowing of the products' operands to sixteen bits changes nothing on the extended reals, and the logistic function
  times its argument is SiLU.
-/
import proofs.«114129_j45775761441336_2_alg».proof.Proof.Gen.KernelIdeal.Skeleton
import proofs.«114129_j45775761441336_2_alg».proof.Proof.Spec
import proofs.«114129_j45775761441336_2_alg».proof.Proof.LibTransMatmul
import Idealize.ShloMosaic.Lib.ValueLayout

noncomputable section

open scoped BigOperators

namespace Cert.Mlp.Body

open Cert.KernelIdeal Cert.KernelIdeal.Gen Idealize.ShloMosaic Idealize.ShloMosaic.ValueIdx

/-- The tile's result at (r, q) from the five blocks the body loads. -/
def tile (v0 : Vec Ideal S1x2048x256 .f32) (v2 : Vec Ideal S1x512x256 .bf16) (v4 : Vec Ideal S1x1x512 .f32)
    (v6 : Vec Ideal S1x256x512 .bf16) (v8 : Vec Ideal S1x1x256 .f32) (r : Fin 2048) (q : Fin 256) : EReal :=
  ((∑ h : Fin 512, Cert.Mlp.silu ((∑ k : Fin 256, v0 (ix3 (0 : Fin 1) r k) * v2 (ix3 (0 : Fin 1) h k)) + v4 (ix3 (0 : Fin 1) (0 : Fin 1) h))
      * v6 (ix3 (0 : Fin 1) q h)) + v8 (ix3 (0 : Fin 1) (0 : Fin 1) q)) + v0 (ix3 (0 : Fin 1) r q)

/-- A block narrowed to sixteen bits after the logistic function times its argument is SiLU of the block, entry by
    entry. -/
theorem silu_at {s : Shape} (p : FVec Ideal s .f32) (hb : FTy.bits .bf16 < FTy.bits .f32) (i : s.Idx) :
    (truncf .bf16 (mulf p (logistic p)) hb : FVec Ideal s .bf16) i = Cert.Mlp.silu (p i) := rfl

/-- THE STORED BLOCK at (u, r, q), u the unit axis: the tile's result at (r, q). -/
theorem pay_apply (v0 : Vec Ideal S1x2048x256 .f32) (v2 : Vec Ideal S1x512x256 .bf16) (v4 : Vec Ideal S1x1x512 .f32)
    (v6 : Vec Ideal S1x256x512 .bf16) (v8 : Vec Ideal S1x1x256 .f32) (u : Fin 1) (r : Fin 2048) (q : Fin 256) :
    k0_pay1 (F := Ideal) v0 v2 v4 v6 v8 (ix3 u r q) = tile v0 v2 v4 v6 v8 r q := by
  unfold k0_pay1
  refine (shapeCast_ab_1ab_apply _ _ u r q).trans ?_
  unfold tile
  refine congrArg₂ (· + ·) ?_ (shapeCast_1ab_ab_apply v0 _ r q)
  refine (Cert.Lib.dense_t2_at _ rfl rfl rfl rfl rfl rfl none _ _ _ _ r q).trans ?_
  refine congrArg₂ (· + ·) (Finset.sum_congr rfl fun h _ => congrArg₂ (· * ·) ?_ (shapeCast_1ab_ab_apply v6 _ q h))
    (shapeCast_1ab_ab_apply v8 _ (0 : Fin 1) q)
  refine (silu_at _ _ (ix2 r h)).trans (congrArg Cert.Mlp.silu ?_)
  refine (Cert.Lib.dense_t2_at _ rfl rfl rfl rfl rfl rfl none _ _ _ _ r h).trans ?_
  exact congrArg₂ (· + ·)
    (Finset.sum_congr rfl fun k _ => congrArg₂ (· * ·)
      ((truncf_apply (ψ := .bf16) _ Facts₀.bitsLt_bf16_f32 (ix2 r k)).trans (shapeCast_1ab_ab_apply v0 _ r k)) (shapeCast_1ab_ab_apply v2 _ h k))
    (shapeCast_1ab_ab_apply v4 _ (0 : Fin 1) h)

end Cert.Mlp.Body

end
-- ==== Proof.KernelValue.lean ====
/-
  THE KERNEL'S RESULT ARRAY IS THE PERCEPTRON.

  The grid has one point per expert n and per half tt of that expert's 4096 tokens. At the point (n, tt) the pipeline
  hands the body expert n's weights and biases whole and rows 2048·tt … 2048·tt + 2047 of its activations, and writes
  the body's tile back to the same rows of the result. So:

    * before the region, the two weights are narrowed to sixteen bits (nothing, on the extended reals) and each bias
      gains a unit middle axis: entry (n, 0, h) of the re-laid bias is entry (n, h) of the bias;
    * each input block at a point, read at a local index, is its array at the index the point's block offset gives;
    * hence the tile the body stores at (n, tt) is the perceptron on rows 2048·tt … of expert n, entry by entry;
    * the 64 tiles cover the result array (row t of expert n lies in the tile of the point (n, t / 2048)), so the array
      ends holding the perceptron everywhere.
-/
import proofs.«114129_j45775761441336_2_alg».proof.Proof.Gen.KernelIdeal.Value
import proofs.«114129_j45775761441336_2_alg».proof.Proof.Payload
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.Mlp.Kernel

open Cert.KernelIdeal Cert.KernelIdeal.Gen Cert.KernelIdeal.Value Idealize.ShloMosaic.ValueIdx

variable (m : (ℓ : Loc nD τ sig) → Buf (Elt Ideal) ℓ) (ρ : Dev nD → PrngReg)

/-- The perceptron of the five argument arrays as launched, on core `c`. -/
abbrev result (c : Dev nD) : Buf (Elt Ideal) ((c : Thread nD τ).loc main_v4) :=
  Cert.Mlp.out (m ((c : Thread nD τ).loc main_arg0)) (m ((c : Thread nD τ).loc main_arg1)) (m ((c : Thread nD τ).loc main_arg2))
    (m ((c : Thread nD τ).loc main_arg3)) (m ((c : Thread nD τ).loc main_arg4))

theorem hz : (![0, 0, 0] : Fin 3 → Nat) = fun _ => 0 := funext fun a => by fin_cases a <;> rfl

/-! ## What the region finds in the four arrays the host writes before it -/

/-- The first weight narrowed to sixteen bits is the first weight. -/
theorem V_w1 (c : Dev nD) : (V m c main_v0 : S32x512x256.Idx → EReal) = m ((c : Thread nD τ).loc main_arg1) := by
  have e : (V m c main_v0 : S32x512x256.Idx → EReal)
      = (truncf .bf16 (m ((c : Thread nD τ).loc main_arg1) : FVec Ideal S32x512x256 .f32) Facts₀.bitsLt_bf16_f32 : FVec Ideal S32x512x256 .bf16) := by
    dsimp only [Gen.V, Gen.hostOps0]; after_results <;> rfl
  exact e

/-- The second weight narrowed to sixteen bits is the second weight. -/
theorem V_w2 (c : Dev nD) : (V m c main_v1 : S32x256x512.Idx → EReal) = m ((c : Thread nD τ).loc main_arg3) := by
  have e : (V m c main_v1 : S32x256x512.Idx → EReal)
      = (truncf .bf16 (m ((c : Thread nD τ).loc main_arg3) : FVec Ideal S32x256x512 .f32) Facts₀.bitsLt_bf16_f32 : FVec Ideal S32x256x512 .bf16) := by
    dsimp only [Gen.V, Gen.hostOps0]; after_results <;> rfl
  exact e

/-- The first bias with a unit middle axis, at (n, z, h): the bias at (n, h). -/
theorem V_b1 (c : Dev nD) (n : Fin 32) (z : Fin 1) (h : Fin 512) :
    (V m c main_v2 : S32x1x512.Idx → EReal) (ix3 n z h) = (m ((c : Thread nD τ).loc main_arg2) : S32x512.Idx → EReal) (ix2 n h) := by
  have e : (V m c main_v2 : S32x1x512.Idx → EReal)
      = broadcastInDim S32x1x512 ![0, 2] Facts₀.bcast_S32x512_S32x1x512_0_2 (m ((c : Thread nD τ).loc main_arg2) : S32x512.Idx → EReal) := by
    dsimp only [Gen.V, Gen.hostOps0]; after_results <;> rfl
  rw [e]
  exact broadcastInDim_apply _ Facts₀.bcast_S32x512_S32x1x512_0_2 _ (ix3 n z h) (ix2 n h) (fun a => match a with
    | ⟨0, _⟩ => by show n.val = if (32 : Nat) = 1 then 0 else n.val; rw [if_neg (by decide)]
    | ⟨1, _⟩ => by show h.val = if (512 : Nat) = 1 then 0 else h.val; rw [if_neg (by decide)])

/-- The second bias with a unit middle axis, at (n, z, q): the bias at (n, q). -/
theorem V_b2 (c : Dev nD) (n : Fin 32) (z : Fin 1) (q : Fin 256) :
    (V m c main_v3 : S32x1x256.Idx → EReal) (ix3 n z q) = (m ((c : Thread nD τ).loc main_arg4) : S32x256.Idx → EReal) (ix2 n q) := by
  have e : (V m c main_v3 : S32x1x256.Idx → EReal)
      = broadcastInDim S32x1x256 ![0, 2] Facts₀.bcast_S32x256_S32x1x256_0_2 (m ((c : Thread nD τ).loc main_arg4) : S32x256.Idx → EReal) := by
    dsimp only [Gen.V, Gen.hostOps0]; after_results <;> rfl
  rw [e]
  exact broadcastInDim_apply _ Facts₀.bcast_S32x256_S32x1x256_0_2 _ (ix3 n z q) (ix2 n q) (fun a => match a with
    | ⟨0, _⟩ => by show n.val = if (32 : Nat) = 1 then 0 else n.val; rw [if_neg (by decide)]
    | ⟨1, _⟩ => by show q.val = if (256 : Nat) = 1 then 0 else q.val; rw [if_neg (by decide)])

/-! ## The block offsets, decided over the 64 grid points -/

/-- The result's block offset at a point is (n, tt, 0) with n < 32 and tt < 2; the activations' block moves with it, and
    the weights' and biases' blocks are expert n's, whole. -/
theorem offsets : ∀ t : Fin cfg0.N,
    win0_5.index t (0 : Fin 3) < 32 ∧ win0_5.index t (1 : Fin 3) < 2 ∧ win0_5.index t (2 : Fin 3) = 0
    ∧ win0_0.index t (0 : Fin 3) = win0_5.index t (0 : Fin 3) ∧ win0_0.index t (1 : Fin 3) = win0_5.index t (1 : Fin 3) ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = 0 ∧ win0_3.index t (2 : Fin 3) = 0
    ∧ win0_4.index t (0 : Fin 3) = win0_5.index t (0 : Fin 3) ∧ win0_4.index t (1 : Fin 3) = 0 ∧ win0_4.index t (2 : Fin 3) = 0 :=
  (by decide +kernel : ∀ t : Fin grid0.N, _)

/-- Every (expert, half) is some point's block offset. -/
theorem offsets_onto : ∀ (n : Fin 32) (tt : Fin 2), ∃ t : Fin cfg0.N, win0_5.index t = ![n.val, tt.val, 0] :=
  (by decide +kernel : ∀ (n : Fin 32) (tt : Fin 2), ∃ t : Fin grid0.N, win0_5.index t = ![n.val, tt.val, 0])

/-! ## Each input block at a point, read at a local index -/

section Blocks

variable (c : Dev nD) (t : Fin cfg0.N) (n : Fin 32) (tt : Fin 2)

/-- The activations' block: rows 2048·tt … of expert n. -/
theorem x_block (hn : win0_5.index t (0 : Fin 3) = n.val) (ht : win0_5.index t (1 : Fin 3) = tt.val)
    (u : Fin 1) (r : Fin 2048) (k : Fin 256) :
    (iblk m c 0 t : Vec Ideal S1x2048x256 .f32) (ix3 u r k)
      = (m ((c : Thread nD τ).loc main_arg0) : S32x4096x256.Idx → EReal) (ix3 n ⟨tt.val * 2048 + r.val, by omega⟩ k) := by
  obtain ⟨-, -, -, a0, a1, a2, -⟩ := offsets t
  unfold iblk
  rw [View.read_apply]
  show V m c main_arg0 _ = _
  rw [V_main_arg0]
  refine congrArg (m ((c : Thread nD τ).loc main_arg0) : S32x4096x256.Idx → EReal) (funext fun a => Fin.ext ?_)
  match a with
  | ⟨0, _⟩ => show win0_0.index t (0 : Fin 3) * 1 + 1 * u.val = n.val; omega
  | ⟨1, _⟩ => show win0_0.index t (1 : Fin 3) * 2048 + 1 * r.val = tt.val * 2048 + r.val; omega
  | ⟨2, _⟩ => show win0_0.index t (2 : Fin 3) * 256 + 1 * k.val = k.val; omega

/-- The first weight's block: expert n's. -/
theorem w1_block (hn : win0_5.index t (0 : Fin 3) = n.val) (u : Fin 1) (h : Fin 512) (k : Fin 256) :
    (iblk m c 1 t : Vec Ideal S1x512x256 .bf16) (ix3 u h k)
      = (m ((c : Thread nD τ).loc main_arg1) : S32x512x256.Idx → EReal) (ix3 n h k) := by
  obtain ⟨-, -, -, -, -, -, a0, a1, a2, -⟩ := offsets t
  unfold iblk
  rw [View.read_apply]
  show (V m c main_v0 : S32x512x256.Idx → EReal) _ = _
  rw [V_w1]
  refine congrArg (m ((c : Thread nD τ).loc main_arg1) : S32x512x256.Idx → EReal) (funext fun a => Fin.ext ?_)
  match a with
  | ⟨0, _⟩ => show win0_1.index t (0 : Fin 3) * 1 + 1 * u.val = n.val; omega
  | ⟨1, _⟩ => show win0_1.index t (1 : Fin 3) * 512 + 1 * h.val = h.val; omega
  | ⟨2, _⟩ => show win0_1.index t (2 : Fin 3) * 256 + 1 * k.val = k.val; omega

/-- The first bias's block: expert n's. -/
theorem b1_block (hn : win0_5.index t (0 : Fin 3) = n.val) (u z : Fin 1) (h : Fin 512) :
    (iblk m c 2 t : Vec Ideal S1x1x512 .f32) (ix3 u z h)
      = (m ((c : Thread nD τ).loc main_arg2) : S32x512.Idx → EReal) (ix2 n h) := by
  obtain ⟨-, -, -, -, -, -, -, -, -, a0, a1, a2, -⟩ := offsets t
  unfold iblk
  rw [View.read_apply]
  show (V m c main_v2 : S32x1x512.Idx → EReal) _ = _
  refine Eq.trans (congrArg (V m c main_v2 : S32x1x512.Idx → EReal) (funext fun a => Fin.ext ?_)) (V_b1 m c n (0 : Fin 1) h)
  match a with
  | ⟨0, _⟩ => show win0_2.index t (0 : Fin 3) * 1 + 1 * u.val = n.val; omega
  | ⟨1, _⟩ => show win0_2.index t (1 : Fin 3) * 1 + 1 * z.val = 0; omega
  | ⟨2, _⟩ => show win0_2.index t (2 : Fin 3) * 512 + 1 * h.val = h.val; omega

/-- The second weight's block: expert n's. -/
theorem w2_block (hn : win0_5.index t (0 : Fin 3) = n.val) (u : Fin 1) (q : Fin 256) (h : Fin 512) :
    (iblk m c 3 t : Vec Ideal S1x256x512 .bf16) (ix3 u q h)
      = (m ((c : Thread nD τ).loc main_arg3) : S32x256x512.Idx → EReal) (ix3 n q h) := by
  obtain ⟨-, -, -, -, -, -, -, -, -, -, -, -, a0, a1, a2, -⟩ := offsets t
  unfold iblk
  rw [View.read_apply]
  show (V m c main_v1 : S32x256x512.Idx → EReal) _ = _
  rw [V_w2]
  refine congrArg (m ((c : Thread nD τ).loc main_arg3) : S32x256x512.Idx → EReal) (funext fun a => Fin.ext ?_)
  match a with
  | ⟨0, _⟩ => show win0_3.index t (0 : Fin 3) * 1 + 1 * u.val = n.val; omega
  | ⟨1, _⟩ => show win0_3.index t (1 : Fin 3) * 256 + 1 * q.val = q.val; omega
  | ⟨2, _⟩ => show win0_3.index t (2 : Fin 3) * 512 + 1 * h.val = h.val; omega

/-- The second bias's block: expert n's. -/
theorem b2_block (hn : win0_5.index t (0 : Fin 3) = n.val) (u z : Fin 1) (q : Fin 256) :
    (iblk m c 4 t : Vec Ideal S1x1x256 .f32) (ix3 u z q)
      = (m ((c : Thread nD τ).loc main_arg4) : S32x256.Idx → EReal) (ix2 n q) := by
  obtain ⟨-, -, -, -, -, -, -, -, -, -, -, -, -, -, -, a0, a1, a2⟩ := offsets t
  unfold iblk
  rw [View.read_apply]
  show (V m c main_v3 : S32x1x256.Idx → EReal) _ = _
  refine Eq.trans (congrArg (V m c main_v3 : S32x1x256.Idx → EReal) (funext fun a => Fin.ext ?_)) (V_b2 m c n (0 : Fin 1) q)
  match a with
  | ⟨0, _⟩ => show win0_4.index t (0 : Fin 3) * 1 + 1 * u.val = n.val; omega
  | ⟨1, _⟩ => show win0_4.index t (1 : Fin 3) * 1 + 1 * z.val = 0; omega
  | ⟨2, _⟩ => show win0_4.index t (2 : Fin 3) * 256 + 1 * q.val = q.val; omega

/-- THE TILE at the point (n, tt) is the perceptron on rows 2048·tt … of expert n. -/
theorem tile_eq (hn : win0_5.index t (0 : Fin 3) = n.val) (ht : win0_5.index t (1 : Fin 3) = tt.val)
    (r : Fin 2048) (q : Fin 256) :
    Cert.Mlp.Body.tile (iblk m c 0 t) (iblk m c 1 t) (iblk m c 2 t) (iblk m c 3 t) (iblk m c 4 t) r q
      = Cert.Mlp.mlp (m ((c : Thread nD τ).loc main_arg0)) (m ((c : Thread nD τ).loc main_arg1)) (m ((c : Thread nD τ).loc main_arg2))
          (m ((c : Thread nD τ).loc main_arg3)) (m ((c : Thread nD τ).loc main_arg4)) n ⟨tt.val * 2048 + r.val, by omega⟩ q :=
  congrArg₂ (· + ·)
    (congrArg₂ (· + ·)
      (Finset.sum_congr rfl fun h _ => congrArg₂ (· * ·)
        (congrArg Cert.Mlp.silu (congrArg₂ (· + ·)
          (Finset.sum_congr rfl fun k _ => congrArg₂ (· * ·) (x_block m c t n tt hn ht 0 r k) (w1_block m c t n hn 0 h k))
          (b1_block m c t n hn 0 0 h)))
        (w2_block m c t n hn 0 q h))
      (b2_block m c t n hn 0 0 q))
    (x_block m c t n tt hn ht 0 r q)

end Blocks

/-! ## From the tiles to the array -/

/-- WHAT POINT `t` WRITES BACK is block `t` of the perceptron of the argument arrays. -/
theorem flushed_eq (c : Dev nD) (t : Fin cfg0.N) :
    (dats m 0 c).flushed 5 t = ((cfg0.win 5).blk t).view.read (Elt Ideal) (result m c) := by
  rw [Value.flushed5]
  unfold out0_5
  rw [View.canon_unit_zero hz]
  simp only [View.ld_unit_zero (S := S1x2048x256) hz, View.ld_unit_zero (S := S1x512x256) hz, View.ld_unit_zero (S := S1x1x512) hz,
    View.ld_unit_zero (S := S1x256x512) hz, View.ld_unit_zero (S := S1x1x256) hz]
  obtain ⟨hn, ht, h2, -⟩ := offsets t
  funext j
  have hj0 : (j 0).val < 1 := (j 0).isLt
  have hj1 : (j 1).val < 2048 := (j 1).isLt
  have hj2 : (j 2).val < 256 := (j 2).isLt
  show k0_pay1 (F := Ideal) (iblk m c 0 t) (iblk m c 1 t) (iblk m c 2 t) (iblk m c 3 t) (iblk m c 4 t) j
    = result m c (((cfg0.win 5).blk t).view.emb j)
  have e5 : ((cfg0.win 5).blk t).view.emb j
      = ix3 (⟨win0_5.index t (0 : Fin 3), hn⟩ : Fin 32) (⟨win0_5.index t (1 : Fin 3) * 2048 + (j 1).val, by omega⟩ : Fin 4096) (⟨(j 2).val, hj2⟩ : Fin 256) := by
    funext a; apply Fin.ext
    match a with
    | ⟨0, _⟩ => show win0_5.index t (0 : Fin 3) * 1 + 1 * (j 0).val = win0_5.index t (0 : Fin 3); omega
    | ⟨1, _⟩ => show win0_5.index t (1 : Fin 3) * 2048 + 1 * (j 1).val = win0_5.index t (1 : Fin 3) * 2048 + (j 1).val; omega
    | ⟨2, _⟩ => show win0_5.index t (2 : Fin 3) * 256 + 1 * (j 2).val = (j 2).val; omega
  rw [e5]
  have ej : j = ix3 (⟨(j 0).val, hj0⟩ : Fin 1) (⟨(j 1).val, hj1⟩ : Fin 2048) (⟨(j 2).val, hj2⟩ : Fin 256) := by
    funext a
    match a with
    | ⟨0, _⟩ => rfl
    | ⟨1, _⟩ => rfl
    | ⟨2, _⟩ => rfl
  refine (congrArg (k0_pay1 (F := Ideal) (iblk m c 0 t) (iblk m c 1 t) (iblk m c 2 t) (iblk m c 3 t) (iblk m c 4 t)) ej).trans ?_
  refine (Cert.Mlp.Body.pay_apply (iblk m c 0 t) (iblk m c 1 t) (iblk m c 2 t) (iblk m c 3 t) (iblk m c 4 t) _ _ _).trans ?_
  exact tile_eq m c t ⟨win0_5.index t (0 : Fin 3), hn⟩ ⟨win0_5.index t (1 : Fin 3), ht⟩ rfl rfl ⟨(j 1).val, hj1⟩ ⟨(j 2).val, hj2⟩

/-- An index of the result array is in point `t`'s block iff each coordinate is in the block's range on its axis. -/
theorem mem_blk (t : Fin cfg0.N) (i : S32x4096x256.Idx) :
    i ∈ ((cfg0.win 5).blk t).view.set ↔ ∀ a : Fin 3, win0_5.index t a * S1x2048x256.size a ≤ (i a).val
      ∧ (i a).val < win0_5.index t a * S1x2048x256.size a + S1x2048x256.size a := by
  show i ∈ ((View.whole main_v4).slice (win0_5.rect t)).set ↔ _
  rw [View.set_slice_whole, Rect.mem_set_unit]
  exact Iff.rfl

/-- The 64 tiles cover the result array: row t of expert n is in the tile of the point with offset (n, t / 2048). -/
theorem cover (i : S32x4096x256.Idx) :
    ∃ t : Fin cfg0.N, (cfg0.win 5).flush t = true ∧ i ∈ ((cfg0.win 5).blk t).view.set := by
  have hi0 : (i 0).val < 32 := (i 0).isLt
  have hi1 : (i 1).val < 4096 := (i 1).isLt
  have hi2 : (i 2).val < 256 := (i 2).isLt
  obtain ⟨t, ht⟩ := offsets_onto ⟨(i 0).val, hi0⟩ ⟨(i 1).val / 2048, by omega⟩
  have q0 : win0_5.index t (0 : Fin 3) = (i 0).val := congrFun ht 0
  have q1 : win0_5.index t (1 : Fin 3) = (i 1).val / 2048 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 2048 ≤ (i 1).val ∧ (i 1).val < win0_5.index t (1 : Fin 3) * 2048 + 2048; omega
  | ⟨2, _⟩ => show win0_5.index t (2 : Fin 3) * 256 ≤ (i 2).val ∧ (i 2).val < win0_5.index t (2 : Fin 3) * 256 + 256; omega

/-- THE RESULT ARRAY after the run is the perceptron of the argument arrays. -/
theorem final (c : Dev nD) : (dats m 0 c).arrAt 5 cfg0.N = result m c :=
  (dats m 0 c).arrAt_eq_of_cover 5 (result m c) (fun t _ => flushed_eq m c t) cover

/-- The kernel's run, read: the result array at the perceptron of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.Mlp.Kernel

end
-- ==== Proof.RefValue.lean ====
/-
  THE REFERENCE COMPUTES THE PERCEPTRON.

  The reference is two batched contractions over the expert axis with the biases broadcast along the token axis, its
  expansion of SiLU between them (negate, exponential, add one, divide one by it, multiply), and the residual add. Read
  one operation at a time at an index (n, t, d):

    * the first contraction at (n, t, h) is the sum over k of x (n, t, k) · W1 (n, h, k);
    * the bias, broadcast first to [32, 1, 512] and then along the tokens, is b1 (n, h) there;
    * the expansion of SiLU is SiLU, on every extended real;
    * the second contraction at (n, t, d) is the sum over h of the activated hidden value at (n, t, h) times
      W2 (n, d, h); the second bias is b2 (n, d); and x (n, t, d) is added last.

  These are the terms of `Cert.Mlp.out` in the same grouping, so the two agree by rewriting alone.
-/
import proofs.«114129_j45775761441336_2_alg».proof.Proof.Gen.ReferenceIdeal.Read
import proofs.«114129_j45775761441336_2_alg».proof.Proof.Spec

noncomputable section

open scoped BigOperators

namespace Cert.Mlp.Ref

open Cert.ReferenceIdeal Cert.ReferenceIdeal.Read Idealize.ShloMosaic Idealize.ShloMosaic.ValueIdx

/-- The first layer before its activation, as the reference computes it, at (n, t, h). -/
theorem pre_apply (x0 : (⟨S32x4096x256, .f32⟩ : BufTy).Contents (Elt Ideal)) (x1 : (⟨S32x512x256, .f32⟩ : BufTy).Contents (Elt Ideal))
    (x2 : (⟨S32x512, .f32⟩ : BufTy).Contents (Elt Ideal)) (n : Fin 32) (t : Fin 4096) (h : Fin 512) :
    val_main_v3 (F := Ideal) x0 x1 x2 (ix3 n t h) = Cert.Mlp.pre x0 x1 x2 n t h := by
  have el : ∀ k : Fin 256, lidx_main_v0 (ix3 n t h) k = ix3 n t k := fun k => funext fun a => by
    match a with
    | ⟨0, _⟩ => rfl
    | ⟨1, _⟩ => rfl
    | ⟨2, _⟩ => rfl
  have er : ∀ k : Fin 256, ridx_main_v0 (ix3 n t h) k = ix3 n h k := fun k => funext fun a => by
    match a with
    | ⟨0, _⟩ => rfl
    | ⟨1, _⟩ => rfl
    | ⟨2, _⟩ => rfl
  have eb : idx_main_v1 (idx_main_v2 (ix3 n t h)) = ix2 n h := funext fun a => by
    match a with
    | ⟨0, _⟩ => rfl
    | ⟨1, _⟩ => rfl
  rw [val_main_v3_apply, val_main_v0_apply, val_main_v2_apply, val_main_v1_apply, eb]
  simp only [el, er]
  rfl

/-- The activated hidden value, as the reference computes it, at (n, t, h): the reference's expansion of SiLU is SiLU. -/
theorem act_apply (x0 : (⟨S32x4096x256, .f32⟩ : BufTy).Contents (Elt Ideal)) (x1 : (⟨S32x512x256, .f32⟩ : BufTy).Contents (Elt Ideal))
    (x2 : (⟨S32x512, .f32⟩ : BufTy).Contents (Elt Ideal)) (n : Fin 32) (t : Fin 4096) (h : Fin 512) :
    val_main_v4 (F := Ideal) x0 x1 x2 (ix3 n t h) = Cert.Mlp.silu (Cert.Mlp.pre x0 x1 x2 n t h) := by
  rw [val_main_v4_apply, val_main_call0_v5_apply, val_main_call0_v4_apply, val_main_call0_cst_0_apply,
    val_main_call0_v3_apply, val_main_call0_v2_apply, val_main_call0_cst_apply, val_main_call0_v1_apply,
    val_main_call0_v0_apply, pre_apply]
  exact Cert.Mlp.silu_spelt _

/-- THE REFERENCE'S RESULT is the perceptron of its five arguments. -/
theorem result_eq (x0 : (⟨S32x4096x256, .f32⟩ : BufTy).Contents (Elt Ideal)) (x1 : (⟨S32x512x256, .f32⟩ : BufTy).Contents (Elt Ideal))
    (x2 : (⟨S32x512, .f32⟩ : BufTy).Contents (Elt Ideal)) (x3 : (⟨S32x256x512, .f32⟩ : BufTy).Contents (Elt Ideal))
    (x4 : (⟨S32x256, .f32⟩ : BufTy).Contents (Elt Ideal)) :
    val_main_v9 (F := Ideal) x0 x1 x2 x3 x4 = Cert.Mlp.out x0 x1 x2 x3 x4 := by
  funext i
  obtain ⟨n, t, d, rfl⟩ : ∃ (n : Fin 32) (t : Fin 4096) (d : Fin 256), i = ix3 n t d := ⟨i 0, i 1, i 2, eq_ix3 i⟩
  have el : ∀ h : Fin 512, lidx_main_v5 (ix3 n t d) h = ix3 n t h := fun h => funext fun a => by
    match a with
    | ⟨0, _⟩ => rfl
    | ⟨1, _⟩ => rfl
    | ⟨2, _⟩ => rfl
  have er : ∀ h : Fin 512, ridx_main_v5 (ix3 n t d) h = ix3 n d h := fun h => funext fun a => by
    match a with
    | ⟨0, _⟩ => rfl
    | ⟨1, _⟩ => rfl
    | ⟨2, _⟩ => rfl
  have eb : idx_main_v6 (idx_main_v7 (ix3 n t d)) = ix2 n d := funext fun a => by
    match a with
    | ⟨0, _⟩ => rfl
    | ⟨1, _⟩ => rfl
  rw [val_main_v9_apply, val_main_v8_apply, val_main_v5_apply, val_main_v7_apply, val_main_v6_apply, eb]
  simp only [el, er, act_apply]
  rfl

end Cert.Mlp.Ref

end
-- ==== Proof.lean ====
/-
  A BANK OF THIRTY-TWO TWO-LAYER PERCEPTRONS: THE TILED KERNEL AGAINST THE BATCHED REFERENCE.

  Both programs compute, for expert n, token t and feature d,

      (∑ h, silu ((∑ k, x (n, t, k) · W1 (n, h, k)) + b1 (n, h)) · W2 (n, d, h)) + b2 (n, d) + x (n, t, d)

  with silu a = a · σ(a) (Proof/Spec.lean: `Cert.Mlp.out`).

  The kernel walks a grid of 32 × 2 points, one per expert and per half of that expert's tokens, and at each point
  computes a 2048-row tile from the expert's whole weights: two matrix products contracting the last axes, the biases
  repeated down the rows, the logistic function times its argument, the residual add (Proof/Payload.lean). The tiles
  cover the result array, each landing on its own rows (Proof/KernelValue.lean). The reference does the same
  arithmetic as two contractions batched over the expert axis, with SiLU spelt as a product with 1 / (1 + e^(-a))
  (Proof/RefValue.lean).

  On the extended reals the logistic function is by definition that quotient, a change of float format is the
  identity, and a contraction is a finite sum whichever way it is tiled. The two sides add the same terms in the same
  grouping, so they are equal for every input, infinite ones included: the precondition is not used for the values.
  Reading the kernel on the extended reals changes none of its operations, so there is nothing to preserve.
-/
import proofs.«114129_j45775761441336_2_alg».proof.Defs
import proofs.«114129_j45775761441336_2_alg».proof.Proof.Gen.Kernel
import proofs.«114129_j45775761441336_2_alg».proof.Proof.Gen.Kernel.Skeleton
import proofs.«114129_j45775761441336_2_alg».proof.Proof.Gen.Kernel.Launch
import proofs.«114129_j45775761441336_2_alg».proof.Proof.Gen.Kernel.Points
import proofs.«114129_j45775761441336_2_alg».proof.Proof.Gen.Kernel.Frame
import proofs.«114129_j45775761441336_2_alg».proof.Proof.Gen.KernelIdeal
import proofs.«114129_j45775761441336_2_alg».proof.Proof.Gen.KernelIdeal.Skeleton
import proofs.«114129_j45775761441336_2_alg».proof.Proof.Gen.KernelIdeal.Launch
import proofs.«114129_j45775761441336_2_alg».proof.Proof.Gen.KernelIdeal.Points
import proofs.«114129_j45775761441336_2_alg».proof.Proof.Gen.KernelIdeal.Frame
import proofs.«114129_j45775761441336_2_alg».proof.Proof.Gen.KernelIdeal.Value
import proofs.«114129_j45775761441336_2_alg».proof.Proof.Gen.ReferenceIdeal
import proofs.«114129_j45775761441336_2_alg».proof.Proof.Gen.ReferenceIdeal.Run
import proofs.«114129_j45775761441336_2_alg».proof.Proof.Gen.ReferenceIdeal.Read
import proofs.«114129_j45775761441336_2_alg».proof.Proof.Gen.Pre_finite_inputs
import proofs.«114129_j45775761441336_2_alg».proof.Proof.KernelValue
import proofs.«114129_j45775761441336_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments alone. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- So does the reference: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading on the extended reals. -/
theorem preserves : Cert.preserves_Kernel_KernelIdeal := trivial

/-- The kernel's result array ends at the perceptron of its arguments, and so does the reference's, of arguments that
    agree: one function of the same five arrays. -/
theorem algebraic : Cert.algebraic_KernelIdeal_ReferenceIdeal := by
  intro m ρ m' ρ' _ hagree
  refine ⟨fun c => Cert.Mlp.Kernel.result m c, Cert.Mlp.Kernel.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v9_eq _ _ _ _ _).trans ((Cert.Mlp.Ref.result_eq _ _ _ _ _).trans ?_)
  obtain ⟨e0, e1, e2, e3, e4⟩ := hagree c
  rw [e0, e1, e2, e3, e4]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
